-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S512x512x512 : Shape := ⟨3, ![512, 512, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x512x512 : S_.BroadcastsInDim S512x512x512 (![] : Fin 0 → Fin S512x512x512.rank)
  reducesTo_S512x512x512_S_d0_1_2 : S512x512x512.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x1024x512 .f32) (main_arg1 : FVec F S8x1024x512 .f32) (main_arg2 : FVec F S512x512x512 .f32) (main_arg3 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x1024x512 .f32 := Host.absf main_arg1
  let main_cst_0 : FVec F S_ .f32 := constant S_ .f32 0x7F800000#32
  let main_v5 : FVec F S8x1024x512 .f32 := broadcastInDim S8x1024x512 ![] bcast_S_S8x1024x512 main_cst_0
  let main_v6 : IVec S8x1024x512 1 := cmpf .olt main_v4 main_v5
  let main_c_1 : IVec S_ 1 := constantI S_ 1 1#1
  let main_v7 : IVec S_ 1 := (fun x v => Host.reduce IntOp.andi x v reducesTo_S8x1024x512_S_d0_1_2 h_S_) main_v6 main_c_1
  let main_v8 : IVec S_ 1 := andi main_v3 main_v7
  let main_v9 : FVec F S512x512x512 .f32 := Host.absf main_arg2
  let main_cst_2 : FVec F S_ .f32 := constant S_ .f32 0x7F800000#32
  let main_v10 : FVec F S512x512x512 .f32 := broadcastInDim S512x512x512 ![] bcast_S_S512x512x512 main_cst_2
  let main_v11 : IVec S512x512x512 1 := cmpf .olt main_v9 main_v10
  let main_c_3 : IVec S_ 1 := constantI S_ 1 1#1
  let main_v12 : IVec S_ 1 := (fun x v => Host.reduce IntOp.andi x v reducesTo_S512x512x512_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x1024x512 : Shape := ⟨3, ![8, 1024, 512]⟩
abbrev S512x512x512 : Shape := ⟨3, ![512, 512, 512]⟩
abbrev S512 : Shape := ⟨1, ![512]⟩
abbrev S_ : Shape := ⟨0, ![]⟩
abbrev S8x512 : Shape := ⟨2, ![8, 512]⟩
abbrev S262144x512 : Shape := ⟨2, ![262144, 512]⟩
abbrev S8x262144 : Shape := ⟨2, ![8, 262144]⟩
abbrev S4096x512 : Shape := ⟨2, ![4096, 512]⟩
abbrev S8x4096 : Shape := ⟨2, ![8, 4096]⟩
abbrev S8x512x512 : Shape := ⟨3, ![8, 512, 512]⟩
abbrev S1x512 : Shape := ⟨2, ![1, 512]⟩
abbrev S1x1024x512 : Shape := ⟨3, ![1, 1024, 512]⟩
abbrev S1x512x512 : Shape := ⟨3, ![1, 512, 512]⟩
abbrev S1024x512 : Shape := ⟨2, ![1024, 512]⟩
abbrev S512x512 : Shape := ⟨2, ![512, 512]⟩

abbrev nBuf : Space → Nat
  | .hbm => 14
  | .vmem => 12
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S512x512x512, .f32⟩
  | .hbm, ⟨3, _⟩ => ⟨S512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S262144x512, .f32⟩
  | .hbm, ⟨10, _⟩ => ⟨S8x262144, .f32⟩
  | .hbm, ⟨11, _⟩ => ⟨S8x512x512, .f32⟩
  | .hbm, ⟨12, _⟩ => ⟨S1x512, .f32⟩
  | .hbm, ⟨13, _⟩ => ⟨S8x1024x512, .f32⟩
  | .local _ .vmem, ⟨0, _⟩ => ⟨S4096x512, .f32⟩
  | .local _ .vmem, ⟨1, _⟩ => ⟨S4096x512, .f32⟩
  | .local _ .vmem, ⟨2, _⟩ => ⟨S8x512, .f32⟩
  | .local _ .vmem, ⟨3, _⟩ => ⟨S8x4096, .f32⟩
  | .local _ .vmem, ⟨4, _⟩ => ⟨S8x4096, .f32⟩
  | .local _ .vmem, ⟨5, _⟩ => ⟨S1x1024x512, .f32⟩
  | .local _ .vmem, ⟨6, _⟩ => ⟨S1x1024x512, .f32⟩
  | .local _ .vmem, ⟨7, _⟩ => ⟨S1x512x512, .f32⟩
  | .local _ .vmem, ⟨8, _⟩ => ⟨S1x512x512, .f32⟩
  | .local _ .vmem, ⟨9, _⟩ => ⟨S1x512, .f32⟩
  | .local _ .vmem, ⟨10, _⟩ => ⟨S1x1024x512, .f32⟩
  | .local _ .vmem, ⟨11, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  reducesTo_S8x1024x512_S8x512_d1 : S8x1024x512.ReducesTo [1] S8x512
  h_S_ : 0 < S_.numel
  bcast_S_S8x512 : S_.BroadcastsInDim S8x512 (![] : Fin 0 → Fin S8x512.rank)
  shapeCasts_S512x512x512_S262144x512 : S512x512x512.ShapeCasts S262144x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x4096_S8x4096_0_0 : ∀ a, (![0, 0] : Fin 2 → Nat) a + S8x4096.size a ≤ S8x4096.size a
  h_S8x4096 : 0 < S8x4096.numel
  shapeCasts_S8x262144_S8x512x512 : S8x262144.ShapeCasts S8x512x512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S8x512_S4096x512_S8x4096_1_1_0_0_n_n_wf : DotDims.WF S8x512 S4096x512 S8x4096 [1] [1] [0] [0] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x262144.size a
  hwx0_2 : ∀ i : grid0.Coords, EltTy.bits .f32 = 32 ∨ (Rect.block (s := S8x262144) S8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x512.size a
  hwx1_0 : ∀ i : grid1.Coords, EltTy.bits .f32 = 32 ∨ (Rect.block (s := S8x1024x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x512x512.size a
  hwx1_1 : ∀ i : grid1.Coords, EltTy.bits .f32 = 32 ∨ (Rect.block (s := S8x512x512) S1x512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S8x1024x512.size a
  hwx1_3 : ∀ i : grid1.Coords, EltTy.bits .f32 = 32 ∨ (Rect.block (s := S8x1024x512) S1x1024x512.size (cc1_transform_3 i) (hinb1_3 i)).WholeWords (EltTy.packing .f32)

variable [Facts₀]

def dot_S8x512_S4096x512_S8x4096_1_1_0_0_n_n : DotDims S8x512 S4096x512 S8x4096 where
  lhsContracting := [1]
  rhsContracting := [1]
  lhsNonContracting := [0]
  rhsNonContracting := [0]
  lhsBatch := []
  rhsBatch := []
  wf := dot_S8x512_S4096x512_S8x4096_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v3) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x1024x512 : Shape := ⟨3, ![8, 1024, 512]⟩
abbrev S512x512x512 : Shape := ⟨3, ![512, 512, 512]⟩
abbrev S512 : Shape := ⟨1, ![512]⟩
abbrev S_ : Shape := ⟨0, ![]⟩
abbrev S8x512 : Shape := ⟨2, ![8, 512]⟩
abbrev S8x512x512 : Shape := ⟨3, ![8, 512, 512]⟩
abbrev S1x1x512 : Shape := ⟨3, ![1, 1, 512]⟩

abbrev nBuf : Space → Nat
  | .hbm => 14
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S512x512x512, .f32⟩
  | .hbm, ⟨3, _⟩ => ⟨S512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S8x512x512, .f32⟩
  | .hbm, ⟨10, _⟩ => ⟨S8x1024x512, .f32⟩
  | .hbm, ⟨11, _⟩ => ⟨S1x1x512, .f32⟩
  | .hbm, ⟨12, _⟩ => ⟨S8x1024x512, .f32⟩
  | .hbm, ⟨13, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S8x1024x512_S8x512_d1 : S8x1024x512.ReducesTo [1] S8x512
  h_S_ : 0 < S_.numel
  bcast_S_S8x512 : S_.BroadcastsInDim S8x512 (![] : Fin 0 → Fin S8x512.rank)
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  dot_S8x512_S512x512x512_S8x512x512_1_2_0_01_n_n_wf : DotDims.WF S8x512 S512x512x512 S8x512x512 [1] [2] [0] [0, 1] [] []
  dot_S8x1024x512_S8x512x512_S8x1024x512_2_2_1_1_0_0_wf : DotDims.WF S8x1024x512 S8x512x512 S8x1024x512 [2] [2] [1] [1] [0] [0]

variable [Facts₀]

def dot_S8x512_S512x512x512_S8x512x512_1_2_0_01_n_n : DotDims S8x512 S512x512x512 S8x512x512 where
  lhsContracting := [1]
  rhsContracting := [2]
  lhsNonContracting := [0]
  rhsNonContracting := [0, 1]
  lhsBatch := []
  rhsBatch := []
  wf := dot_S8x512_S512x512x512_S8x512x512_1_2_0_01_n_n_wf
def dot_S8x1024x512_S8x512x512_S8x1024x512_2_2_1_1_0_0 : DotDims S8x1024x512 S8x512x512 S8x1024x512 where
  lhsContracting := [2]
  rhsContracting := [2]
  lhsNonContracting := [1]
  rhsNonContracting := [1]
  lhsBatch := [0]
  rhsBatch := [0]
  wf := dot_S8x1024x512_S8x512x512_S8x1024x512_2_2_1_1_0_0_wf

class Facts : Prop extends Facts₀ where

variable [Facts]
-- ==== Proof.KernelRun.lean ====
/-
  The idealized kernel's run with its result named.

  @main is four segments: the host operations before the first launch, the first launch, the two host reshapes, the
  second launch. Each segment leaves every unscoped buffer at a known contents, a fold from the launch memory; after
  the last segment that contents is `Gen.W4`. So every weakly fair execution terminates with the result buffer
  holding `Gen.W4` at the result's reference and with the four argument arrays as launched. This is the launch
  theorem for a program of several regions applied to the generated segments, exactly as for the frame, with the
  final state read at one more buffer.
-/
import proofs.«101318_j82446192214447_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.Payloads.lean ====
/-
  What each of the two kernel bodies stores, read at an index over the extended reals.

  The first body multiplies its `[8, 512]` block `x` of pooled rows against its `[4096, 512]` block `w` of flattened
  weight rows, contracting the second axis of both into a zero accumulator: entry `(p, q)` of what it stores is
  `Σ_k x (p, k) · w (q, k)`. The second body does the same with a `[1024, 512]` block of `x1` and a `[512, 512]`
  block of the first stage's result, both held with a leading unit axis, adds the bias row stretched over the
  `1024` rows, and stores the sum with a leading unit axis again: entry `(0, l, o)` is
  `Σ_k x1 (0, l, k) · t (0, o, k) + bias (0, o)`. A change of float format is the identity on the extended reals, and
  the zero accumulator adds nothing.
-/
import proofs.«101318_j82446192214447_2_alg».proof.Proof.Gen.KernelIdeal.Skeleton
import proofs.«101318_j82446192214447_2_alg».proof.Proof.LibTransDot
import Idealize.ShloMosaic.Lib.ValueIdx
import Idealize.ShloMosaic.Lib.Pipeline.Value
import Idealize.ShloMosaic.PureOps.Ideal.Laws

noncomputable section

namespace Cert.KernelIdeal.Stores

open Cert.KernelIdeal Cert.KernelIdeal.Gen Idealize.ShloMosaic Idealize.ShloMosaic.ValueIdx Idealize.ShloMosaic.TransDot

/-- The first body's product contracts the second axis of both operands, one axis of extent 512. -/
theorem pooledDims : TransDot (M := 8) (K := 512) (N := 4096) dot_S8x512_S4096x512_S8x4096_1_1_0_0_n_n where
  hr := rfl
  hs := rfl
  l0 := fun j q => by
    unfold DotDims.lhsIdx
    rw [dif_neg (show ¬(0 : Fin S8x512.rank) ∈ dot_S8x512_S4096x512_S8x4096_1_1_0_0_n_n.lhsBatch by decide),
      dif_pos (show (0 : Fin S8x512.rank) ∈ dot_S8x512_S4096x512_S8x4096_1_1_0_0_n_n.lhsNonContracting by decide)]
    rfl
  l1 := fun j q => dot_S8x512_S4096x512_S8x4096_1_1_0_0_n_n.lhsIdx_val_of_single rfl j q
  r0 := fun j q => by
    unfold DotDims.rhsIdx
    rw [dif_neg (show ¬(0 : Fin S4096x512.rank) ∈ dot_S8x512_S4096x512_S8x4096_1_1_0_0_n_n.rhsBatch by decide),
      dif_pos (show (0 : Fin S4096x512.rank) ∈ dot_S8x512_S4096x512_S8x4096_1_1_0_0_n_n.rhsNonContracting by decide)]
    rfl
  r1 := fun j q => dot_S8x512_S4096x512_S8x4096_1_1_0_0_n_n.rhsIdx_val_of_single rfl j q

/-- So does the second body's. -/
theorem rowsDims : TransDot (M := 1024) (K := 512) (N := 512) dot_S1024x512_S512x512_S1024x512_1_1_0_0_n_n where
  hr := rfl
  hs := rfl
  l0 := fun j q => by
    unfold DotDims.lhsIdx
    rw [dif_neg (show ¬(0 : Fin S1024x512.rank) ∈ dot_S1024x512_S512x512_S1024x512_1_1_0_0_n_n.lhsBatch by decide),
      dif_pos (show (0 : Fin S1024x512.rank) ∈ dot_S1024x512_S512x512_S1024x512_1_1_0_0_n_n.lhsNonContracting by decide)]
    rfl
  l1 := fun j q => dot_S1024x512_S512x512_S1024x512_1_1_0_0_n_n.lhsIdx_val_of_single rfl j q
  r0 := fun j q => by
    unfold DotDims.rhsIdx
    rw [dif_neg (show ¬(0 : Fin S512x512.rank) ∈ dot_S1024x512_S512x512_S1024x512_1_1_0_0_n_n.rhsBatch by decide),
      dif_pos (show (0 : Fin S512x512.rank) ∈ dot_S1024x512_S512x512_S1024x512_1_1_0_0_n_n.rhsNonContracting by decide)]
    rfl
  r1 := fun j q => dot_S1024x512_S512x512_S1024x512_1_1_0_0_n_n.rhsIdx_val_of_single rfl j q

/-- What the first body stores at `(p, q)`: row `p` of the pooled block against row `q` of the weight block. -/
theorem pooled_store (w : Vec Ideal S4096x512 .f32) (x : Vec Ideal S8x512 .f32) (p : Fin 8) (q : Fin 4096) :
    k0_pay1 w x (ix2 p q) = ∑ k : Fin 512, x (ix2 p k) * w (ix2 q k) := by
  unfold k0_pay1
  simp only [shapeCast_self]
  exact matmul_zero_trans_apply dot_S8x512_S4096x512_S8x4096_1_1_0_0_n_n pooledDims none _ _ p q

/-- A `[1, a, b]` block viewed as `[a, b]`. -/
theorem dropLead_apply {α : Type} {a b : ℕ} (v : (⟨3, ![1, a, b]⟩ : Shape).Idx → α)
    (h : (⟨3, ![1, a, b]⟩ : Shape).ShapeCasts ⟨2, ![a, b]⟩) (r : Fin a) (c : Fin b) :
    shapeCast ⟨2, ![a, b]⟩ v h (ix2 r c) = v (ix3 (0 : Fin 1) r c) :=
  shapeCast_apply v h _ (ix3 (0 : Fin 1) r c) (by
    rw [Shape.rowMajor_val_three, Shape.rowMajor_val_two]
    show (0 * a + r.val) * b + c.val = r.val * b + c.val
    rw [Nat.zero_mul, Nat.zero_add])

/-- An `[a, b]` value stored as a `[1, a, b]` block. -/
theorem addLead_apply {α : Type} {a b : ℕ} (v : (⟨2, ![a, b]⟩ : Shape).Idx → α)
    (h : (⟨2, ![a, b]⟩ : Shape).ShapeCasts ⟨3, ![1, a, b]⟩) (r : Fin a) (c : Fin b) :
    shapeCast ⟨3, ![1, a, b]⟩ v h (ix3 (0 : Fin 1) r c) = v (ix2 r c) :=
  shapeCast_apply v h _ (ix2 r c) (by
    rw [Shape.rowMajor_val_three, Shape.rowMajor_val_two]
    show r.val * b + c.val = (0 * a + r.val) * b + c.val
    rw [Nat.zero_mul, Nat.zero_add])

/-- A `[1, 512]` row stretched over `1024` rows. -/
theorem stretchRow_apply {α : Type} (v : S1x512.Idx → α) (h : S1x512.Broadcasts S1024x512) (r : Fin 1024) (c : Fin 512) :
    broadcastTo S1024x512 v h (ix2 r c) = v (ix2 (0 : Fin 1) c) :=
  broadcastTo_apply v h _ (ix2 (0 : Fin 1) c) (fun a => by
    match a with
    | ⟨0, _⟩ => rfl
    | ⟨1, _⟩ => rfl)

/-- What the second body stores at `(0, l, o)`: row `l` of the `x1` block against row `o` of the first stage's
    block, plus the bias row at `o`. -/
theorem rows_store (x1 : Vec Ideal S1x1024x512 .f32) (t : Vec Ideal S1x512x512 .f32) (bias : Vec Ideal S1x512 .f32)
    (l : Fin 1024) (o : Fin 512) :
    k1_pay1 x1 t bias (ix3 (0 : Fin 1) l o)
      = (∑ k : Fin 512, x1 (ix3 (0 : Fin 1) l k) * t (ix3 (0 : Fin 1) o k)) + bias (ix2 (0 : Fin 1) o) := by
  unfold k1_pay1
  simp only [shapeCast_self]
  rw [addLead_apply, addf_apply, stretchRow_apply,
    matmul_zero_trans_apply dot_S1024x512_S512x512_S1024x512_1_1_0_0_n_n rowsDims none _ _ l o]
  refine congrArg (· + bias (ix2 (0 : Fin 1) o)) (Finset.sum_congr rfl fun k _ => ?_)
  rw [truncf_apply, truncf_apply, dropLead_apply, dropLead_apply]

end Cert.KernelIdeal.Stores

end
-- ==== Proof.Bilinear.lean ====
/-
  The bilinear pooling map and the two stages a tiled evaluation goes through.

  For `x1 : [B, L, K]`, a pooled second operand `x2m : [B, J]`, a weight `W : [O, K, J]` and a bias `b : [O]`,
      out (b, l, o) = Σ_k x1 (b, l, k) · (Σ_j x2m (b, j) · W (o, k, j)) + b o            (`bilinear`).
  A staged evaluation first contracts `x2m` against the weight flattened to `[O·K, J]` rows (`pooledFlat`),
  views the `[B, O·K]` result as `[B, O, K]`, and then contracts each row of `x1` against it and adds the bias
  held as a `[1, O]` row (`rowsAgainst`). Row-major flattening sends `(o, k)` to `o · K + k`, so the staged
  value is the bilinear map, term by term: no sum is regrouped and no product redistributed, only the inner
  sum's weight entry is found at `(o · K + k, j)` of the flattened weight (`rowsAgainst_pooledFlat`).
-/
import Idealize.ShloMosaic.Lib.ValueIdx
import Idealize.ShloMosaic.Lib.Pipeline.Value
import Idealize.ShloMosaic.PureOps.Ideal

noncomputable section

namespace Cert.Bilinear

open Idealize.ShloMosaic Idealize.ShloMosaic.ValueIdx

/-- Entry `(b, m)` is the dot product of row `b` of `x` with row `m` of `w`. -/
def pooledFlat {B M J : ℕ} (x : (⟨2, ![B, J]⟩ : Shape).Idx → EReal) (w : (⟨2, ![M, J]⟩ : Shape).Idx → EReal) :
    (⟨2, ![B, M]⟩ : Shape).Idx → EReal :=
  fun i => ∑ j : Fin J, x (ix2 (i 0) j) * w (ix2 (i 1) j)

/-- Entry `(b, l, o)` is the dot product of row `(b, l)` of `x1` with row `(b, o)` of `t`, plus the bias row at `o`. -/
def rowsAgainst {B L K O : ℕ} (x1 : (⟨3, ![B, L, K]⟩ : Shape).Idx → EReal) (t : (⟨3, ![B, O, K]⟩ : Shape).Idx → EReal)
    (bias : (⟨2, ![1, O]⟩ : Shape).Idx → EReal) : (⟨3, ![B, L, O]⟩ : Shape).Idx → EReal :=
  fun i => (∑ k : Fin K, x1 (ix3 (i 0) (i 1) k) * t (ix3 (i 0) (i 2) k)) + bias (ix2 (0 : Fin 1) (i 2))

/-- The bilinear pooling map: `Σ_k x1 (b, l, k) · (Σ_j x2m (b, j) · W (o, k, j)) + b o`. -/
def bilinear {B L K O J : ℕ} (x1 : (⟨3, ![B, L, K]⟩ : Shape).Idx → EReal) (x2m : (⟨2, ![B, J]⟩ : Shape).Idx → EReal)
    (W : (⟨3, ![O, K, J]⟩ : Shape).Idx → EReal) (b : (⟨1, ![O]⟩ : Shape).Idx → EReal) :
    (⟨3, ![B, L, O]⟩ : Shape).Idx → EReal :=
  fun i => (∑ k : Fin K, x1 (ix3 (i 0) (i 1) k) * ∑ j : Fin J, x2m (ix2 (i 0) j) * W (ix3 (i 2) k j)) + b (ix1 (i 2))

/-- The flattened weight at row `o · 512 + k` is the weight at `(o, k)`. -/
theorem flatWeight_apply (W : (⟨3, ![512, 512, 512]⟩ : Shape).Idx → EReal)
    (hW : (⟨3, ![512, 512, 512]⟩ : Shape).ShapeCasts ⟨2, ![262144, 512]⟩) (o k j : Fin 512) (h : o.val * 512 + k.val < 262144) :
    shapeCast ⟨2, ![262144, 512]⟩ W hW (ix2 ⟨o.val * 512 + k.val, h⟩ j) = W (ix3 o k j) :=
  shapeCast_apply W hW _ (ix3 o k j) (by
    rw [Shape.rowMajor_val_three, Shape.rowMajor_val_two]
    show (o.val * 512 + k.val) * 512 + j.val = (o.val * 512 + k.val) * 512 + j.val
    rfl)

/-- The `[8, 262144]` first-stage result viewed as `[8, 512, 512]`: entry `(b, o, k)` is entry `(b, o · 512 + k)`. -/
theorem unflat_apply (t : (⟨2, ![8, 262144]⟩ : Shape).Idx → EReal)
    (ht : (⟨2, ![8, 262144]⟩ : Shape).ShapeCasts ⟨3, ![8, 512, 512]⟩) (b : Fin 8) (o k : Fin 512) (h : o.val * 512 + k.val < 262144) :
    shapeCast ⟨3, ![8, 512, 512]⟩ t ht (ix3 b o k) = t (ix2 b ⟨o.val * 512 + k.val, h⟩) :=
  shapeCast_apply t ht _ (ix2 b ⟨o.val * 512 + k.val, h⟩) (by
    rw [Shape.rowMajor_val_three, Shape.rowMajor_val_two]
    show b.val * 262144 + (o.val * 512 + k.val) = (b.val * 512 + o.val) * 512 + k.val
    omega)

/-- The bias viewed as a one-row matrix. -/
theorem biasRow_apply (b : (⟨1, ![512]⟩ : Shape).Idx → EReal)
    (hb : (⟨1, ![512]⟩ : Shape).ShapeCasts ⟨2, ![1, 512]⟩) (o : Fin 512) :
    shapeCast ⟨2, ![1, 512]⟩ b hb (ix2 (0 : Fin 1) o) = b (ix1 o) :=
  shapeCast_apply b hb _ (ix1 o) (by
    rw [Shape.rowMajor_val_one, Shape.rowMajor_val_two]
    show o.val = 0 * 512 + o.val
    omega)

/-- The staged evaluation is the bilinear map. -/
theorem rowsAgainst_pooledFlat (x1 : (⟨3, ![8, 1024, 512]⟩ : Shape).Idx → EReal) (x2m : (⟨2, ![8, 512]⟩ : Shape).Idx → EReal)
    (W : (⟨3, ![512, 512, 512]⟩ : Shape).Idx → EReal) (b : (⟨1, ![512]⟩ : Shape).Idx → EReal)
    (hW : (⟨3, ![512, 512, 512]⟩ : Shape).ShapeCasts ⟨2, ![262144, 512]⟩)
    (ht : (⟨2, ![8, 262144]⟩ : Shape).ShapeCasts ⟨3, ![8, 512, 512]⟩)
    (hb : (⟨1, ![512]⟩ : Shape).ShapeCasts ⟨2, ![1, 512]⟩) :
    rowsAgainst x1 (shapeCast ⟨3, ![8, 512, 512]⟩ (pooledFlat x2m (shapeCast ⟨2, ![262144, 512]⟩ W hW)) ht)
        (shapeCast ⟨2, ![1, 512]⟩ b hb)
      = bilinear x1 x2m W b := by
  funext i
  obtain ⟨p, l, o, rfl⟩ : ∃ (p : Fin 8) (l : Fin 1024) (o : Fin 512), i = ix3 p l o := ⟨i 0, i 1, i 2, eq_ix3 i⟩
  show (∑ k : Fin 512, x1 (ix3 p l k) * shapeCast ⟨3, ![8, 512, 512]⟩ (pooledFlat x2m (shapeCast ⟨2, ![262144, 512]⟩ W hW)) ht (ix3 p o k))
        + shapeCast ⟨2, ![1, 512]⟩ b hb (ix2 (0 : Fin 1) o)
      = (∑ k : Fin 512, x1 (ix3 p l k) * ∑ j : Fin 512, x2m (ix2 p j) * W (ix3 o k j)) + b (ix1 o)
  rw [biasRow_apply]
  refine congrArg (· + b (ix1 o)) (Finset.sum_congr rfl fun k _ => congrArg (x1 (ix3 p l k) * ·) ?_)
  have h : o.val * 512 + k.val < 262144 := by have := o.isLt; have := k.isLt; omega
  rw [unflat_apply _ ht p o k h]
  show ∑ j : Fin 512, x2m (ix2 p j) * shapeCast ⟨2, ![262144, 512]⟩ W hW (ix2 ⟨o.val * 512 + k.val, h⟩ j) = _
  exact Finset.sum_congr rfl fun j _ => congrArg (x2m (ix2 p j) * ·) (flatWeight_apply W hW o k j h)

end Cert.Bilinear

end
-- ==== Proof.Region0.lean ====
/-
  The first launch, as one function of the arrays it finds.

  The grid has 64 points. At point `t` the weight window holds rows `4096 t … 4096 t + 4095` of the flattened weight,
  the pooled window holds the whole `[8, 512]` pooled array at every point, and the output window is columns
  `4096 t … 4096 t + 4095` of the `[8, 262144]` result. What the body stores at `(p, q)` of its block is the dot product
  of pooled row `p` with weight row `4096 t + q`: the block is the restriction of `pooledFlat` to those columns. The 64
  column blocks tile the result, column `n` lying in block `n / 4096`, so the array the launch leaves is `pooledFlat` of
  the pooled array and the flattened weight as the launch found them.
-/
import proofs.«101318_j82446192214447_2_alg».proof.Proof.Gen.KernelIdeal.Frame
import proofs.«101318_j82446192214447_2_alg».proof.Proof.Payloads
import proofs.«101318_j82446192214447_2_alg».proof.Proof.Bilinear

set_option maxRecDepth 16384

noncomputable section

namespace Cert.KernelIdeal.Stage0

open Cert.KernelIdeal Cert.KernelIdeal.Gen Cert.KernelIdeal.Stores Cert.Bilinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the weight window moves down the rows with the point, the pooled window stays,
    the output window moves along the columns with the point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- The body's store against blocks that are rows `4096 n …` of a flattened weight `Wf` and the whole of a pooled
    array `X`, read at the block index `y` whose place in the result is `i`. -/
theorem store_is_pooledFlat (w : Vec Ideal S4096x512 .f32) (x : Vec Ideal S8x512 .f32)
    (Wf : S262144x512.Idx → EReal) (X : S8x512.Idx → EReal) (n : ℕ)
    (hw : ∀ (q : Fin 4096) (k : Fin 512) (h : n * 4096 + q.val < 262144), w (ix2 q k) = Wf (ix2 ⟨n * 4096 + q.val, h⟩ k))
    (hx : ∀ (p : Fin 8) (k : Fin 512), x (ix2 p k) = X (ix2 p k))
    (y : S8x4096.Idx) (i : S8x262144.Idx) (h0 : (i 0).val = (y 0).val) (h1 : (i 1).val = n * 4096 + (y 1).val) :
    k0_pay1 w x y = pooledFlat X Wf i := by
  obtain ⟨p, q, rfl⟩ : ∃ (p : Fin 8) (q : Fin 4096), y = ix2 p q := ⟨y 0, y 1, eq_ix2 y⟩
  obtain ⟨a, b, rfl⟩ : ∃ (a : Fin 8) (b : Fin 262144), i = ix2 a b := ⟨i 0, i 1, eq_ix2 i⟩
  obtain rfl : a = p := Fin.ext h0
  have hq : n * 4096 + q.val < 262144 := by have := b.isLt; have e : b.val = n * 4096 + q.val := h1; omega
  obtain rfl : b = ⟨n * 4096 + q.val, hq⟩ := Fin.ext h1
  rw [pooled_store]
  show _ = ∑ k : Fin 512, X (ix2 a k) * Wf (ix2 ⟨n * 4096 + q.val, hq⟩ k)
  exact Finset.sum_congr rfl fun k _ => by rw [hx a k, hw q k hq]

/-- What point `t` writes back is block `t` of `pooledFlat` of the arrays as the launch finds them. -/
theorem flushed_eq (c : Dev nD) (t : Fin cfg0.N) :
    (dat0 V c).flushed 2 t
      = ((cfg0.win 2).blk t).view.read (Elt Ideal) (pooledFlat (V c main_v2 : S8x512.Idx → EReal) (V c main_v3 : S262144x512.Idx → EReal)) := by
  show (cfg0.win 2).cut (grid0.coords t) ((dat0 V c).after 2 t) = _
  rw [after0_2]
  unfold out0_2
  rw [View.canon_unit_zero hz]
  simp only [View.ld_unit_zero (S := S4096x512) hz, View.ld_unit_zero (S := S8x512) hz]
  obtain ⟨e00, e01, e10, e11, e20, e21⟩ := index_facts t
  funext y
  show k0_pay1 (iblk0 V c 0 t) (iblk0 V c 1 t) y
      = pooledFlat (V c main_v2 : S8x512.Idx → EReal) (V c main_v3 : S262144x512.Idx → EReal) (((cfg0.win 2).blk t).view.emb y)
  refine store_is_pooledFlat (iblk0 V c 0 t) (iblk0 V c 1 t) (V c main_v3) (V c main_v2) t.val ?_ ?_ y _ ?_ ?_
  · intro q k h
    show V c main_v3 (((cfg0.win 0).blk t).view.emb (ix2 q k)) = V c main_v3 (ix2 ⟨t.val * 4096 + q.val, h⟩ k)
    refine congrArg (V c main_v3) (funext fun a => Fin.ext ?_)
    match a with
    | ⟨0, _⟩ => show win0_0.index t (0 : Fin 2) * 4096 + 1 * q.val = t.val * 4096 + q.val; rw [e00]; omega
    | ⟨1, _⟩ => show win0_0.index t (1 : Fin 2) * 512 + 1 * k.val = k.val; rw [e01]; omega
  · intro p k
    show V c main_v2 (((cfg0.win 1).blk t).view.emb (ix2 p k)) = V c main_v2 (ix2 p k)
    refine congrArg (V c main_v2) (funext fun a => Fin.ext ?_)
    match a with
    | ⟨0, _⟩ => show win0_1.index t (0 : Fin 2) * 8 + 1 * p.val = p.val; rw [e10]; omega
    | ⟨1, _⟩ => show win0_1.index t (1 : Fin 2) * 512 + 1 * k.val = k.val; rw [e11]; omega
  · show win0_2.index t (0 : Fin 2) * 8 + 1 * (y 0).val = (y 0).val; rw [e20]; omega
  · show win0_2.index t (1 : Fin 2) * 4096 + 1 * (y 1).val = t.val * 4096 + (y 1).val; rw [e21]; omega

/-- An index of the result lies in point `t`'s block iff each coordinate is in the block's range on its axis. -/
theorem mem_blk (t : Fin cfg0.N) (i : S8x262144.Idx) :
    i ∈ ((cfg0.win 2).blk t).view.set ↔ ∀ a : Fin 2, win0_2.index t a * S8x4096.size a ≤ (i a).val ∧ (i a).val < win0_2.index t a * S8x4096.size a + S8x4096.size a := by
  show i ∈ ((View.whole main_v4).slice (win0_2.rect t)).set ↔ _
  rw [View.set_slice_whole, Rect.mem_set_unit]
  exact Iff.rfl

/-- Column `n` of the result lies in the block of point `n / 4096`. -/
theorem cover (i : S8x262144.Idx) : ∃ t : Fin cfg0.N, (cfg0.win 2).flush t = true ∧ i ∈ ((cfg0.win 2).blk t).view.set := by
  have hi0 : (i 0).val < 8 := (i 0).isLt
  have hi1 : (i 1).val < 262144 := (i 1).isLt
  have hN : cfg0.N = 64 := N_0
  have ht : (i 1).val / 4096 < cfg0.N := by rw [hN]; omega
  obtain ⟨-, -, -, -, e20, e21⟩ := index_facts ⟨(i 1).val / 4096, ht⟩
  refine ⟨⟨(i 1).val / 4096, ht⟩, flush0_2 _, ?_⟩
  rw [mem_blk]
  intro a
  match a with
  | ⟨0, _⟩ =>
    show win0_2.index ⟨(i 1).val / 4096, ht⟩ (0 : Fin 2) * 8 ≤ (i 0).val ∧ (i 0).val < win0_2.index ⟨(i 1).val / 4096, ht⟩ (0 : Fin 2) * 8 + 8
    rw [e20]; omega
  | ⟨1, _⟩ =>
    show win0_2.index ⟨(i 1).val / 4096, ht⟩ (1 : Fin 2) * 4096 ≤ (i 1).val ∧ (i 1).val < win0_2.index ⟨(i 1).val / 4096, ht⟩ (1 : Fin 2) * 4096 + 4096
    rw [e21]; show (i 1).val / 4096 * 4096 ≤ (i 1).val ∧ (i 1).val < (i 1).val / 4096 * 4096 + 4096; omega

/-- The array the first launch leaves: `pooledFlat` of the pooled array and the flattened weight as it found them. -/
theorem result (c : Dev nD) :
    (dat0 V c).arrAt 2 cfg0.N = pooledFlat (V c main_v2 : S8x512.Idx → EReal) (V c main_v3 : S262144x512.Idx → EReal) :=
  (dat0 V c).arrAt_eq_of_cover 2 _ (fun t _ => flushed_eq V c t) cover

end Cert.KernelIdeal.Stage0

end
-- ==== Proof.Region1.lean ====
/-
  The second launch, as one function of the arrays it finds.

  The grid has 8 points, one per batch entry. At point `t` the windows of `x1`, of the first stage's result viewed
  `[8, 512, 512]`, and of the output each hold batch entry `t` as a block with a leading unit axis; the bias row
  `[1, 512]` is held whole at every point. What the body stores at `(0, l, o)` of its block is the dot product of row
  `(t, l)` of `x1` with row `(t, o)` of the first stage's result, plus the bias at `o`: the block is the restriction of
  `rowsAgainst` to batch entry `t`. The 8 blocks tile the output, entry `(b, l, o)` lying in block `b`.
-/
import proofs.«101318_j82446192214447_2_alg».proof.Proof.Gen.KernelIdeal.Frame
import proofs.«101318_j82446192214447_2_alg».proof.Proof.Payloads
import proofs.«101318_j82446192214447_2_alg».proof.Proof.Bilinear

set_option maxRecDepth 16384

noncomputable section

namespace Cert.KernelIdeal.Stage1

open Cert.KernelIdeal Cert.KernelIdeal.Gen Cert.KernelIdeal.Stores Cert.Bilinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The four index maps over the grid: `x1`, the first stage's result and the output move along the batch axis with the
    point; the bias row stays. -/
theorem index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The body's store against blocks that are batch entry `n` of `X1` and of `T` and the whole bias row, read at the
    block index `y` whose place in the output is `i`. -/
theorem store_is_rowsAgainst (x1 : Vec Ideal S1x1024x512 .f32) (tb : Vec Ideal S1x512x512 .f32) (bb : Vec Ideal S1x512 .f32)
    (X1 : S8x1024x512.Idx → EReal) (T : S8x512x512.Idx → EReal) (Bias : S1x512.Idx → EReal) (n : ℕ) (hn : n < 8)
    (hx : ∀ (l : Fin 1024) (k : Fin 512), x1 (ix3 (0 : Fin 1) l k) = X1 (ix3 ⟨n, hn⟩ l k))
    (ht : ∀ (o k : Fin 512), tb (ix3 (0 : Fin 1) o k) = T (ix3 ⟨n, hn⟩ o k))
    (hb : ∀ o : Fin 512, bb (ix2 (0 : Fin 1) o) = Bias (ix2 (0 : Fin 1) o))
    (y : S1x1024x512.Idx) (i : S8x1024x512.Idx) (h0 : (i 0).val = n) (h1 : (i 1).val = (y 1).val) (h2 : (i 2).val = (y 2).val) :
    k1_pay1 x1 tb bb y = rowsAgainst X1 T Bias i := by
  obtain ⟨u, l, o, rfl⟩ : ∃ (u : Fin 1) (l : Fin 1024) (o : Fin 512), y = ix3 u l o := ⟨y 0, y 1, y 2, eq_ix3 y⟩
  obtain rfl : u = 0 := Subsingleton.elim _ _
  obtain ⟨a, l', o', rfl⟩ : ∃ (a : Fin 8) (l' : Fin 1024) (o' : Fin 512), i = ix3 a l' o' := ⟨i 0, i 1, i 2, eq_ix3 i⟩
  obtain rfl : a = ⟨n, hn⟩ := Fin.ext h0
  obtain rfl : l' = l := Fin.ext h1
  obtain rfl : o' = o := Fin.ext h2
  rw [rows_store, hb]
  show _ = (∑ k : Fin 512, X1 (ix3 ⟨n, hn⟩ l' k) * T (ix3 ⟨n, hn⟩ o' k)) + Bias (ix2 (0 : Fin 1) o')
  exact congrArg (· + Bias (ix2 (0 : Fin 1) o')) (Finset.sum_congr rfl fun k _ => by rw [hx l' k, ht o' k])

/-- What point `t` writes back is block `t` of `rowsAgainst` of the arrays as the launch finds them. -/
theorem flushed_eq (c : Dev nD) (t : Fin cfg1.N) :
    (dat1 V c).flushed 3 t
      = ((cfg1.win 3).blk t).view.read (Elt Ideal)
          (rowsAgainst (V c main_arg0 : S8x1024x512.Idx → EReal) (V c main_v5 : S8x512x512.Idx → EReal) (V c main_v6 : S1x512.Idx → EReal)) := by
  show (cfg1.win 3).cut (grid1.coords t) ((dat1 V c).after 3 t) = _
  rw [after1_3]
  unfold out1_3
  rw [View.canon_unit_zero hz3]
  simp only [View.ld_unit_zero (S := S1x1024x512) hz3, View.ld_unit_zero (S := S1x512x512) hz3, View.ld_unit_zero (S := S1x512) hz2]
  obtain ⟨e00, e01, e02, e10, e11, e12, e20, e21, e30, e31, e32⟩ := index_facts t
  have hN : cfg1.N = 8 := N_1
  have ht8 : t.val < 8 := by have := t.isLt; omega
  funext y
  show k1_pay1 (iblk1 V c 0 t) (iblk1 V c 1 t) (iblk1 V c 2 t) y
      = rowsAgainst (V c main_arg0 : S8x1024x512.Idx → EReal) (V c main_v5 : S8x512x512.Idx → EReal) (V c main_v6 : S1x512.Idx → EReal)
          (((cfg1.win 3).blk t).view.emb y)
  refine store_is_rowsAgainst (iblk1 V c 0 t) (iblk1 V c 1 t) (iblk1 V c 2 t) (V c main_arg0) (V c main_v5) (V c main_v6) t.val ht8
    ?_ ?_ ?_ y _ ?_ ?_ ?_
  · intro l k
    show V c main_arg0 (((cfg1.win 0).blk t).view.emb (ix3 (0 : Fin 1) l k)) = V c main_arg0 (ix3 ⟨t.val, ht8⟩ l k)
    refine congrArg (V c main_arg0) (funext fun a => Fin.ext ?_)
    match a with
    | ⟨0, _⟩ => show win1_0.index t (0 : Fin 3) * 1 + 1 * 0 = t.val; rw [e00]; omega
    | ⟨1, _⟩ => show win1_0.index t (1 : Fin 3) * 1024 + 1 * l.val = l.val; rw [e01]; omega
    | ⟨2, _⟩ => show win1_0.index t (2 : Fin 3) * 512 + 1 * k.val = k.val; rw [e02]; omega
  · intro o k
    show V c main_v5 (((cfg1.win 1).blk t).view.emb (ix3 (0 : Fin 1) o k)) = V c main_v5 (ix3 ⟨t.val, ht8⟩ o k)
    refine congrArg (V c main_v5) (funext fun a => Fin.ext ?_)
    match a with
    | ⟨0, _⟩ => show win1_1.index t (0 : Fin 3) * 1 + 1 * 0 = t.val; rw [e10]; omega
    | ⟨1, _⟩ => show win1_1.index t (1 : Fin 3) * 512 + 1 * o.val = o.val; rw [e11]; omega
    | ⟨2, _⟩ => show win1_1.index t (2 : Fin 3) * 512 + 1 * k.val = k.val; rw [e12]; omega
  · intro o
    show V c main_v6 (((cfg1.win 2).blk t).view.emb (ix2 (0 : Fin 1) o)) = V c main_v6 (ix2 (0 : Fin 1) o)
    refine congrArg (V c main_v6) (funext fun a => Fin.ext ?_)
    match a with
    | ⟨0, _⟩ => show win1_2.index t (0 : Fin 2) * 1 + 1 * 0 = 0; rw [e20]
    | ⟨1, _⟩ => show win1_2.index t (1 : Fin 2) * 512 + 1 * o.val = o.val; rw [e21]; omega
  · show win1_3.index t (0 : Fin 3) * 1 + 1 * (y 0).val = t.val
    have : (y 0).val < 1 := (y 0).isLt
    rw [e30]; omega
  · show win1_3.index t (1 : Fin 3) * 1024 + 1 * (y 1).val = (y 1).val; rw [e31]; omega
  · show win1_3.index t (2 : Fin 3) * 512 + 1 * (y 2).val = (y 2).val; rw [e32]; omega

/-- An index of the output lies in point `t`'s block iff each coordinate is in the block's range on its axis. -/
theorem mem_blk (t : Fin cfg1.N) (i : S8x1024x512.Idx) :
    i ∈ ((cfg1.win 3).blk t).view.set ↔ ∀ a : Fin 3, win1_3.index t a * S1x1024x512.size a ≤ (i a).val ∧ (i a).val < win1_3.index t a * S1x1024x512.size a + S1x1024x512.size a := by
  show i ∈ ((View.whole main_v7).slice (win1_3.rect t)).set ↔ _
  rw [View.set_slice_whole, Rect.mem_set_unit]
  exact Iff.rfl

/-- Entry `(b, l, o)` of the output lies in the block of point `b`. -/
theorem cover (i : S8x1024x512.Idx) : ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 512 := (i 2).isLt
  have hN : cfg1.N = 8 := N_1
  have ht : (i 0).val < cfg1.N := by rw [hN]; exact hi0
  obtain ⟨-, -, -, -, -, -, -, -, e30, e31, e32⟩ := index_facts ⟨(i 0).val, ht⟩
  refine ⟨⟨(i 0).val, ht⟩, flush1_3 _, ?_⟩
  rw [mem_blk]
  intro a
  match a with
  | ⟨0, _⟩ =>
    show win1_3.index ⟨(i 0).val, ht⟩ (0 : Fin 3) * 1 ≤ (i 0).val ∧ (i 0).val < win1_3.index ⟨(i 0).val, ht⟩ (0 : Fin 3) * 1 + 1
    rw [e30]; show (i 0).val * 1 ≤ (i 0).val ∧ (i 0).val < (i 0).val * 1 + 1; omega
  | ⟨1, _⟩ =>
    show win1_3.index ⟨(i 0).val, ht⟩ (1 : Fin 3) * 1024 ≤ (i 1).val ∧ (i 1).val < win1_3.index ⟨(i 0).val, ht⟩ (1 : Fin 3) * 1024 + 1024
    rw [e31]; omega
  | ⟨2, _⟩ =>
    show win1_3.index ⟨(i 0).val, ht⟩ (2 : Fin 3) * 512 ≤ (i 2).val ∧ (i 2).val < win1_3.index ⟨(i 0).val, ht⟩ (2 : Fin 3) * 512 + 512
    rw [e32]; omega

/-- The array the second launch leaves: `rowsAgainst` of `x1`, the first stage's result and the bias row as it found them. -/
theorem result (c : Dev nD) :
    (dat1 V c).arrAt 3 cfg1.N
      = rowsAgainst (V c main_arg0 : S8x1024x512.Idx → EReal) (V c main_v5 : S8x512x512.Idx → EReal) (V c main_v6 : S1x512.Idx → EReal) :=
  (dat1 V c).arrAt_eq_of_cover 3 _ (fun t _ => flushed_eq V c t) cover

end Cert.KernelIdeal.Stage1

end
-- ==== Proof.HostReads.lean ====
/-
  What the host operations leave for the two launches to find.

  Before the first launch the host pools the second operand over its length axis — the sum of the 1024 rows from zero,
  divided by 1024 (`pooled`) — and flattens the weight `[512, 512, 512]` to `[262144, 512]`. Between the launches it views
  the first launch's `[8, 262144]` result as `[8, 512, 512]` and the bias `[512]` as a row `[1, 512]`; `x1` is touched by
  no operation and by neither launch's write-backs, so the second launch finds it as launched.
-/
import proofs.«101318_j82446192214447_2_alg».proof.Proof.Gen.KernelIdeal.Frame
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]

/-- The second operand pooled over its length axis: the rows' sum from zero, divided by 1024. -/
def pooled (x2 : S8x1024x512.Idx → Elt F .f32) : S8x512.Idx → Elt F .f32 :=
  Host.divf (Host.reduceAdd x2 (constant S_ .f32 0x00000000#32) reducesTo_S8x1024x512_S8x512_d1 h_S_)
    (broadcastInDim S8x512 ![] bcast_S_S8x512 (constant S_ .f32 0x44800000#32))

variable (m : (ℓ : Loc nD τ sig) → Buf (Elt F) ℓ) (ρ : Dev nD → PrngReg)

/-- The first launch finds the pooled second operand … -/
theorem pooled_at_first (c : Dev nD) :
    (V1 m ρ c main_v2 : S8x512.Idx → Elt F .f32) = pooled (m ((c : Thread nD τ).loc main_arg1)) := by
  dsimp only [V1, W1, hostOps0]
  after_results
  rfl

/-- … and the flattened weight. -/
theorem weight_at_first (c : Dev nD) :
    (V1 m ρ c main_v3 : S262144x512.Idx → Elt F .f32)
      = shapeCast S262144x512 (m ((c : Thread nD τ).loc main_arg2) : S512x512x512.Idx → Elt F .f32) shapeCasts_S512x512x512_S262144x512 := by
  dsimp only [V1, W1, hostOps0]
  after_results
  rfl

/-- No host operation before the first launch writes `x1` or the bias. -/
theorem x1_before_first (c : Dev nD) : W1 m ρ c (Proc.devRef .tc main_arg0) = m ((c : Thread nD τ).loc main_arg0) := by
  dsimp only [W1, hostOps0]
  after_results
theorem bias_before_first (c : Dev nD) : W1 m ρ c (Proc.devRef .tc main_arg3) = m ((c : Thread nD τ).loc main_arg3) := by
  dsimp only [W1, hostOps0]
  after_results

/-- The second launch finds `x1` as launched … -/
theorem x1_at_second (c : Dev nD) :
    (V3 m ρ c main_arg0 : S8x1024x512.Idx → Elt F .f32) = m ((c : Thread nD τ).loc main_arg0) := by
  have e : (V3 m ρ c main_arg0 : S8x1024x512.Idx → Elt F .f32) = W2 m ρ c (Proc.devRef .tc main_arg0) := by
    dsimp only [V3, W3, hostOps1]
    after_results
  rw [e, W2_of_ne m ρ c main_arg0 (by decide), x1_before_first]

/-- … the first launch's result viewed `[8, 512, 512]` … -/
theorem staged_at_second (c : Dev nD) :
    (V3 m ρ c main_v5 : S8x512x512.Idx → Elt F .f32)
      = shapeCast S8x512x512 ((dat0 (V1 m ρ) c).arrAt 2 cfg0.N : S8x262144.Idx → Elt F .f32) shapeCasts_S8x262144_S8x512x512 := by
  have e : (V3 m ρ c main_v5 : S8x512x512.Idx → Elt F .f32)
      = shapeCast S8x512x512 (W2 m ρ c (Proc.devRef .tc main_v4) : S8x262144.Idx → Elt F .f32) shapeCasts_S8x262144_S8x512x512 := by
    dsimp only [V3, W3, hostOps1]
    after_results
    rfl
  rw [e, W2_arr m ρ c 2]

/-- … and the bias as a row. -/
theorem bias_at_second (c : Dev nD) :
    (V3 m ρ c main_v6 : S1x512.Idx → Elt F .f32)
      = shapeCast S1x512 (m ((c : Thread nD τ).loc main_arg3) : S512.Idx → Elt F .f32) shapeCasts_S512_S1x512 := by
  have e : (V3 m ρ c main_v6 : S1x512.Idx → Elt F .f32)
      = shapeCast S1x512 (W2 m ρ c (Proc.devRef .tc main_arg3) : S512.Idx → Elt F .f32) shapeCasts_S512_S1x512 := by
    dsimp only [V3, W3, hostOps1]
    after_results
    rfl
  rw [e, W2_of_ne m ρ c main_arg3 (by decide), bias_before_first]

end Cert.KernelIdeal.Between

end
-- ==== Proof.KernelValue.lean ====
/-
  The idealized kernel's result is the bilinear pooling map of its arguments.

  The result buffer after the second launch is `rowsAgainst` of what that launch found: `x1` as launched, the first
  launch's array viewed `[8, 512, 512]`, the bias as a row. The first launch's array is `pooledFlat` of what it found: the
  pooled second operand and the flattened weight. Flattening `(o, k)` to `o · 512 + k` and viewing it back cancel, so the
  composite is `bilinear` of `x1`, the pooled second operand, the weight and the bias (`rowsAgainst_pooledFlat`).
-/
import proofs.«101318_j82446192214447_2_alg».proof.Proof.Region0
import proofs.«101318_j82446192214447_2_alg».proof.Proof.Region1
import proofs.«101318_j82446192214447_2_alg».proof.Proof.HostReads
import proofs.«101318_j82446192214447_2_alg».proof.Proof.Bilinear

set_option maxRecDepth 16384

noncomputable section

namespace Cert.KernelIdeal.Result

open Cert.KernelIdeal Cert.KernelIdeal.Gen Cert.Bilinear
open Idealize.ShloMosaic Idealize.ShloMosaic.TcCoe Idealize.SL.Sem

variable (m : (ℓ : Loc nD τ sig) → Buf (Elt Ideal) ℓ) (ρ : Dev nD → PrngReg)

/-- The last boundary's contents at the result buffer, as a function of the launch memory. -/
theorem result_is_bilinear (c : Dev nD) :
    (W4 m ρ c (Proc.devRef .tc main_v7) : S8x1024x512.Idx → EReal)
      = bilinear (m ((c : Thread nD τ).loc main_arg0) : S8x1024x512.Idx → EReal)
          (Between.pooled (F := Ideal) (m ((c : Thread nD τ).loc main_arg1)))
          (m ((c : Thread nD τ).loc main_arg2) : S512x512x512.Idx → EReal)
          (m ((c : Thread nD τ).loc main_arg3) : S512.Idx → EReal) := by
  have e : (W4 m ρ c (Proc.devRef .tc main_v7) : S8x1024x512.Idx → EReal) = (dat1 (V3 m ρ) c).arrAt 3 cfg1.N := W4_arr m ρ c 3
  rw [e, Stage1.result (V3 m ρ) c, Between.x1_at_second, Between.staged_at_second, Between.bias_at_second,
    Stage0.result (V1 m ρ) c, Between.pooled_at_first, Between.weight_at_first]
  exact rowsAgainst_pooledFlat _ _ _ _ _ _ _

end Cert.KernelIdeal.Result

end
-- ==== Proof.RefIsSpec.lean ====
/-
  The reference is the bilinear pooling map of its pooled second operand.

  The reference pools the second operand (its first five host operations, kept as one stage `val_main_v2`), contracts it
  against the weight's last axis (`[8, 512] × [512, 512, 512] → [8, 512, 512]`: entry `(b, o, k)` is
  `Σ_j pooled (b, j) · W (o, k, j)`), contracts `x1`'s last axis against that result's last axis batch by batch (entry
  `(b, l, o)` is `Σ_k x1 (b, l, k) · t (b, o, k)`), and adds the bias spread over the batch and length axes. Read at an
  index, operation by operation, that is `bilinear` verbatim: the same two nested sums with the same factors in the same
  order.
-/
import proofs.«101318_j82446192214447_2_alg».proof.Proof.Gen.ReferenceIdeal.Read
import proofs.«101318_j82446192214447_2_alg».proof.Proof.Bilinear

noncomputable section

namespace Cert.ReferenceIdeal.RefValue

open Cert.ReferenceIdeal Cert.ReferenceIdeal.Gen Cert.ReferenceIdeal.Read Cert.Bilinear
open Idealize.ShloMosaic Idealize.ShloMosaic.ValueIdx

/-- The reference's result, as a function of the argument arrays, is the bilinear map of `x1`, the pooled second
    operand, the weight and the bias. -/
theorem reference_is_bilinear (x0 x1 : S8x1024x512.Idx → EReal) (x2 : S512x512x512.Idx → EReal) (x3 : S512.Idx → EReal) :
    val_main_v7 (F := Ideal) x0 x1 x2 x3 = bilinear x0 (val_main_v2 (F := Ideal) x1) x2 x3 := by
  funext i
  obtain ⟨p, l, o, rfl⟩ : ∃ (p : Fin 8) (l : Fin 1024) (o : Fin 512), i = ix3 p l o := ⟨i 0, i 1, i 2, eq_ix3 i⟩
  have e4l : ∀ k : Fin 512, lidx_main_v4 (ix3 p l o) k = ix3 p l k := fun k => funext fun a => Fin.ext (by
    match a with | ⟨0, _⟩ => rfl | ⟨1, _⟩ => rfl | ⟨2, _⟩ => rfl)
  have e4r : ∀ k : Fin 512, ridx_main_v4 (ix3 p l o) k = ix3 p o k := fun k => funext fun a => Fin.ext (by
    match a with | ⟨0, _⟩ => rfl | ⟨1, _⟩ => rfl | ⟨2, _⟩ => rfl)
  have e3l : ∀ k j : Fin 512, lidx_main_v3 (ix3 p o k) j = ix2 p j := fun k j => funext fun a => Fin.ext (by
    match a with | ⟨0, _⟩ => rfl | ⟨1, _⟩ => rfl)
  have e3r : ∀ k j : Fin 512, ridx_main_v3 (ix3 p o k) j = ix3 o k j := fun k j => funext fun a => Fin.ext (by
    match a with | ⟨0, _⟩ => rfl | ⟨1, _⟩ => rfl | ⟨2, _⟩ => rfl)
  have e5 : idx_main_v5 (idx_main_v6 (ix3 p l o)) = ix1 o := funext fun a => Fin.ext (by
    match a with | ⟨0, _⟩ => rfl)
  rw [val_main_v7_apply, val_main_v4_apply, val_main_v6_apply, val_main_v5_apply, e5]
  show (∑ k : Fin 512, x0 (lidx_main_v4 (ix3 p l o) k) * val_main_v3 (F := Ideal) x1 x2 (ridx_main_v4 (ix3 p l o) k)) + x3 (ix1 o)
      = (∑ k : Fin 512, x0 (ix3 p l k) * ∑ j : Fin 512, val_main_v2 (F := Ideal) x1 (ix2 p j) * x2 (ix3 o k j)) + x3 (ix1 o)
  refine congrArg (· + x3 (ix1 o)) (Finset.sum_congr rfl fun k _ => ?_)
  rw [e4l, e4r, val_main_v3_apply]
  refine congrArg (x0 (ix3 p l k) * ·) (Finset.sum_congr rfl fun j _ => ?_)
  rw [e3l, e3r]

end Cert.ReferenceIdeal.RefValue

end
-- ==== Proof.lean ====
/-
  Bilinear pooling, tiled in two launches, against its plain reference, over the extended reals.

  Both programs pool the second operand over its length axis by the same host operations (the rows' sum from zero,
  divided by 1024), and both then compute
      out (b, l, o) = Σ_k x1 (b, l, k) · (Σ_j pooled (b, j) · W (o, k, j)) + bias o.
  The kernel does it in two launches: the first contracts the pooled operand against the weight flattened to
  `[262144, 512]`, 4096 rows per grid point; the second, per batch entry, contracts `x1` against that result viewed
  `[8, 512, 512]` and adds the bias row. The reference does it with two contractions on the host. Read index by index the
  two are one expression — the same nested sums, the same factors in the same order — so no law of arithmetic beyond
  finding each weight entry at its flattened place is used, and finiteness of the inputs is never needed. A change of
  float format is the identity on the extended reals, so the idealized kernel's text is the kernel's own and nothing is
  owed for it.
-/
import proofs.«101318_j82446192214447_2_alg».proof.Defs
import proofs.«101318_j82446192214447_2_alg».proof.Proof.Gen.Kernel
import proofs.«101318_j82446192214447_2_alg».proof.Proof.Gen.Kernel.Frame
import proofs.«101318_j82446192214447_2_alg».proof.Proof.Gen.KernelIdeal
import proofs.«101318_j82446192214447_2_alg».proof.Proof.Gen.KernelIdeal.Frame
import proofs.«101318_j82446192214447_2_alg».proof.Proof.Gen.ReferenceIdeal
import proofs.«101318_j82446192214447_2_alg».proof.Proof.Gen.ReferenceIdeal.Run
import proofs.«101318_j82446192214447_2_alg».proof.Proof.Gen.ReferenceIdeal.Read
import proofs.«101318_j82446192214447_2_alg».proof.Proof.Gen.Pre_finite_inputs
import proofs.«101318_j82446192214447_2_alg».proof.Proof.KernelRun
import proofs.«101318_j82446192214447_2_alg».proof.Proof.KernelValue
import proofs.«101318_j82446192214447_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's pooling and the kernel's are the same host operations on the same operand. -/
theorem pooled_eq (x : Cert.ReferenceIdeal.S8x1024x512.Idx → EReal) :
    Cert.ReferenceIdeal.Read.val_main_v2 (F := Ideal) x = Cert.KernelIdeal.Between.pooled (F := Ideal) x := rfl

/-- From memories agreeing on the arguments both runs end with the result at the bilinear pooling map of the arguments. -/
theorem algebraic : Cert.algebraic_KernelIdeal_ReferenceIdeal := by
  intro m ρ m' ρ' _ hagree
  refine ⟨fun c => Cert.Bilinear.bilinear
      (m ((c.tc : Thread Cert.KernelIdeal.nD Cert.KernelIdeal.τ).loc Cert.KernelIdeal.main_arg0))
      (Cert.KernelIdeal.Between.pooled (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Result.result_is_bilinear m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v7_eq _ _ _ _).trans
      ((Cert.ReferenceIdeal.RefValue.reference_is_bilinear _ _ _ _).trans (by rw [pooled_eq]))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
